-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576x4 : Shape := ⟨2, ![1048576, 4]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel

variable [Facts]

def fn {F : FTy → Type} [FloatOps F] (main_arg0 : FVec F S1048576x64 .f32) (main_arg1 : IVec S1048576x4 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  main_v3
-- ==== Kernel.lean ====
abbrev S1048576x64 : Shape := ⟨2, ![1048576, 64]⟩
abbrev S1048576x4 : Shape := ⟨2, ![1048576, 4]⟩
abbrev S8x3 : Shape := ⟨2, ![8, 3]⟩
abbrev S8388608x8 : Shape := ⟨2, ![8388608, 8]⟩
abbrev S1048576x8x4 : Shape := ⟨3, ![1048576, 8, 4]⟩
abbrev S2048x4 : Shape := ⟨2, ![2048, 4]⟩
abbrev S2048x8x4 : Shape := ⟨3, ![2048, 8, 4]⟩
abbrev S2048x1x4 : Shape := ⟨3, ![2048, 1, 4]⟩
abbrev S1x8x3 : Shape := ⟨3, ![1, 8, 3]⟩
abbrev S2048x8x3 : Shape := ⟨3, ![2048, 8, 3]⟩
abbrev S2048x8x1 : Shape := ⟨3, ![2048, 8, 1]⟩
abbrev S8388608x4 : Shape := ⟨2, ![8388608, 4]⟩

abbrev nBuf : Space → Nat
  | .hbm => 6
  | .vmem => 5
  | .smem => 0
  | _ => 0

abbrev bufTy : (tb : Table) → Fin (tcTables nBuf tb) → BufTy
  | .hbm, ⟨0, _⟩ => ⟨S1048576x64, .f32⟩
  | .hbm, ⟨1, _⟩ => ⟨S1048576x4, .i32⟩
  | .hbm, ⟨2, _⟩ => ⟨S8x3, .i32⟩
  | .hbm, ⟨3, _⟩ => ⟨S8388608x8, .f32⟩
  | .hbm, ⟨4, _⟩ => ⟨S1048576x8x4, .i32⟩
  | .hbm, ⟨5, _⟩ => ⟨S8388608x4, .i32⟩
  | .local _ .vmem, ⟨0, _⟩ => ⟨S2048x4, .i32⟩
  | .local _ .vmem, ⟨1, _⟩ => ⟨S2048x4, .i32⟩
  | .local _ .vmem, ⟨2, _⟩ => ⟨S8x3, .i32⟩
  | .local _ .vmem, ⟨3, _⟩ => ⟨S2048x8x4, .i32⟩
  | .local _ .vmem, ⟨4, _⟩ => ⟨S2048x8x4, .i32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x8x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1048576x64_S8388608x8 : S1048576x64.ShapeCasts S8388608x8
  inb_S2048x4_S2048x4_0_0 : ∀ a, (![0, 0] : Fin 2 → Nat) a + S2048x4.size a ≤ S2048x4.size a
  h_S2048x4 : 0 < S2048x4.numel
  inb_S8x3_S8x3_0_0 : ∀ a, (![0, 0] : Fin 2 → Nat) a + S8x3.size a ≤ S8x3.size a
  h_S8x3 : 0 < S8x3.numel
  shapeCasts_S2048x4_S2048x1x4 : S2048x4.ShapeCasts S2048x1x4
  shapeCasts_S2048x1x4_S2048x1x4 : S2048x1x4.ShapeCasts S2048x1x4
  broadcasts_S2048x1x4_S2048x8x4 : S2048x1x4.Broadcasts S2048x8x4
  shapeCasts_S8x3_S1x8x3 : S8x3.ShapeCasts S1x8x3
  shapeCasts_S1x8x3_S1x8x3 : S1x8x3.ShapeCasts S1x8x3
  broadcasts_S1x8x3_S2048x8x3 : S1x8x3.Broadcasts S2048x8x3
  slices_S2048x8x4_o0_0_1_S2048x8x3 : S2048x8x4.Slices ![0, 0, 1] S2048x8x3
  slices_S2048x8x4_o0_0_0_S2048x8x1 : S2048x8x4.Slices ![0, 0, 0] S2048x8x1
  inb_S2048x8x4_S2048x8x1_0_0_0 : ∀ a, (![0, 0, 0] : Fin 3 → Nat) a + S2048x8x1.size a ≤ S2048x8x4.size a
  h_S2048x8x1 : 0 < S2048x8x1.numel
  inb_S2048x8x4_S2048x8x3_0_0_1 : ∀ a, (![0, 0, 1] : Fin 3 → Nat) a + S2048x8x3.size a ≤ S2048x8x4.size a
  h_S2048x8x3 : 0 < S2048x8x3.numel
  shapeCasts_S1048576x8x4_S8388608x4 : S1048576x8x4.ShapeCasts S8388608x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S1048576x4.size a
  hwx0_0 : ∀ i : grid0.Coords, EltTy.bits .i32 = 32 ∨ (Rect.block (s := S1048576x4) S2048x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .i32 = 32 ∨ (Rect.block (s := S8x3) S8x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x8x4.size a ≤ S1048576x8x4.size a
  hwx0_2 : ∀ i : grid0.Coords, EltTy.bits .i32 = 32 ∨ (Rect.block (s := S1048576x8x4) S2048x8x4.size (cc0_transform_2 i) (hinb0_2 i)).WholeWords (EltTy.packing .i32)

variable [Facts₀]

abbrev win0_0 : Pipeline.Window sig grid0 :=
  Pipeline.Window.ofSpec (Memref.whole main_arg1) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_c) S8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x8x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576x4 : Shape := ⟨2, ![1048576, 4]⟩
abbrev S8x3 : Shape := ⟨2, ![8, 3]⟩
abbrev S8388608x8 : Shape := ⟨2, ![8388608, 8]⟩
abbrev S1048576x8x4 : Shape := ⟨3, ![1048576, 8, 4]⟩
abbrev S8388608x4 : Shape := ⟨2, ![8388608, 4]⟩
abbrev S1x8x1x3 : Shape := ⟨4, ![1, 8, 1, 3]⟩
abbrev S1048576x8x1x3 : Shape := ⟨4, ![1048576, 8, 1, 3]⟩
abbrev S8388608x3 : Shape := ⟨2, ![8388608, 3]⟩
abbrev S_ : Shape := ⟨0, ![]⟩
abbrev S8388608x1 : Shape := ⟨2, ![8388608, 1]⟩

abbrev nBuf : Space → Nat
  | .hbm => 16
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x4, .i32⟩
  | .hbm, ⟨2, _⟩ => ⟨S8x3, .i32⟩
  | .hbm, ⟨3, _⟩ => ⟨S8388608x8, .f32⟩
  | .hbm, ⟨4, _⟩ => ⟨S1048576x8x4, .i32⟩
  | .hbm, ⟨5, _⟩ => ⟨S8388608x4, .i32⟩
  | .hbm, ⟨6, _⟩ => ⟨S1x8x1x3, .i32⟩
  | .hbm, ⟨7, _⟩ => ⟨S1048576x8x1x3, .i32⟩
  | .hbm, ⟨8, _⟩ => ⟨S8388608x3, .i32⟩
  | .hbm, ⟨9, _⟩ => ⟨S8388608x3, .i32⟩
  | .hbm, ⟨10, _⟩ => ⟨S_, .i32⟩
  | .hbm, ⟨11, _⟩ => ⟨S8388608x3, .i32⟩
  | .hbm, ⟨12, _⟩ => ⟨S8388608x3, .i32⟩
  | .hbm, ⟨13, _⟩ => ⟨S8388608x3, .i32⟩
  | .hbm, ⟨14, _⟩ => ⟨S8388608x1, .i32⟩
  | .hbm, ⟨15, _⟩ => ⟨S8388608x4, .i32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S1048576x64_S8388608x8 : S1048576x64.ShapeCasts S8388608x8
  bcast_S1048576x4_S1048576x8x4_0_2 : S1048576x4.BroadcastsInDim S1048576x8x4 (![0, 2] : Fin 2 → Fin S1048576x8x4.rank)
  shapeCasts_S1048576x8x4_S8388608x4 : S1048576x8x4.ShapeCasts S8388608x4
  shapeCasts_S8x3_S1x8x1x3 : S8x3.ShapeCasts S1x8x1x3
  bcast_S1x8x1x3_S1048576x8x1x3_0_1_2_3 : S1x8x1x3.BroadcastsInDim S1048576x8x1x3 (![0, 1, 2, 3] : Fin 4 → Fin S1048576x8x1x3.rank)
  shapeCasts_S1048576x8x1x3_S8388608x3 : S1048576x8x1x3.ShapeCasts S8388608x3
  slices_S8388608x4_S8388608x3_0_1 : S8388608x4.Slices ![0, 1] S8388608x3
  bcast_S_S8388608x3 : S_.BroadcastsInDim S8388608x3 (![] : Fin 0 → Fin S8388608x3.rank)
  slices_S8388608x4_S8388608x1_0_0 : S8388608x4.Slices ![0, 0] S8388608x1
  concatenates_S8388608x1_S8388608x3_S8388608x4_d1 : Shape.Concatenates [S8388608x1, S8388608x3] S8388608x4 1

variable [Facts₀]

class Facts : Prop extends Facts₀ where

variable [Facts]
-- ==== Proof.KernelBlock.lean ====
/-
  What one grid step leaves in the output's staging block, as a function of the step's two input blocks.

  The body reads a block of 2048 index rows and the table of eight offset triples, and stores twice into the
  2048 × 8 × 4 output block: column 0 gets the index rows' word 0 repeated over the eight table rows; columns 1..3 get
  words 1..3 doubled plus the table row's offsets. The two stored rectangles cover the block, and each stored value,
  read at its own index, is `blockRow` at the block index it lands on; so the block ends holding `blockFn`.
-/
import proofs.«104383_j40948218200800_2_alg».proof.Proof.Gen.KernelIdeal.Frame
import Idealize.ShloMosaic.Lib.Pipeline.Value
import Idealize.ShloMosaic.Lib.ValueIdx
import Idealize.ShloMosaic.Lib.Tactic

noncomputable section

namespace Cert.KernelIdeal.RemapValue

open Cert.KernelIdeal Cert.KernelIdeal.Gen Idealize.ShloMosaic Idealize.ShloMosaic.TcCoe Idealize.SL.Sem
open Idealize.ShloMosaic.ValueIdx

variable {F : FTy → Type} [FloatOps F]

theorem hz2 : (![0, 0] : Fin 2 → Nat) = fun _ => 0 := funext fun a => by fin_cases a <;> rfl

/-- Word `j` of the block's row made from index row `p` of the step's block and table row `v`. -/
def blockRow (x0 : Vec F S2048x4 .i32) (x1 : Vec F S8x3 .i32) (p : Fin 2048) (v : Fin 8) (j : Fin 4) : BitVec 32 :=
  if h : j.val = 0 then x0 (ix2 p j)
  else IntOp.addi (IntOp.muli (x0 (ix2 p j)) 2#32) (x1 (ix2 v ⟨j.val - 1, by have := j.isLt; omega⟩))

/-- The whole output block of a step. -/
def blockFn (x0 : Vec F S2048x4 .i32) (x1 : Vec F S8x3 .i32) : Vec F S2048x8x4 .i32 :=
  fun y => blockRow x0 x1 ⟨(y 0).val, (y 0).isLt⟩ ⟨(y 1).val, (y 1).isLt⟩ ⟨(y 2).val, (y 2).isLt⟩

/-- The index rows repeated over the eight table rows: entry `(p, v, j)` is word `j` of index row `p`. -/
theorem pay1_apply (x0 : Vec F S2048x4 .i32) (p : Fin 2048) (v : Fin 8) (j : Fin 4) :
    k0_pay1 x0 (ix3 p v j) = x0 (ix2 p j) := by
  unfold k0_pay1
  refine (broadcastTo_apply _ broadcasts_S2048x1x4_S2048x8x4 (ix3 p v j) (ix3 p (0 : Fin 1) j) ?_).trans ?_
  · intro a
    match a with
    | ⟨0, _⟩ => rfl
    | ⟨1, _⟩ => rfl
    | ⟨2, _⟩ => rfl
  · rw [shapeCast_self]
    refine shapeCast_apply _ shapeCasts_S2048x4_S2048x1x4 (ix3 p (0 : Fin 1) j) (ix2 p j) ?_
    rw [Shape.rowMajor_val_three, Shape.rowMajor_val_two]
    show p.val * 4 + j.val = (p.val * 1 + 0) * 4 + j.val
    omega

/-- The first store's value: word 0 of index row `p`, for every table row. -/
theorem pay3_apply (x0 : Vec F S2048x4 .i32) (p : Fin 2048) (v : Fin 8) (z : Fin 1) :
    k0_pay3 x0 (ix3 p v z) = x0 (ix2 p (0 : Fin 4)) := by
  unfold k0_pay3
  refine (extractStridedSlice_apply _ _ slices_S2048x8x4_o0_0_0_S2048x8x1 (ix3 p v z) (ix3 p v (0 : Fin 4)) ?_).trans
    (pay1_apply x0 p v 0)
  intro a
  match a with
  | ⟨0, _⟩ => show p.val = 0 + p.val; omega
  | ⟨1, _⟩ => show v.val = 0 + v.val; omega
  | ⟨2, _⟩ => show 0 = 0 + z.val; have := z.isLt; omega

/-- The second store's value: word `k + 1` of index row `p` doubled, plus entry `k` of table row `v`. -/
theorem pay2_apply (x0 : Vec F S2048x4 .i32) (x1 : Vec F S8x3 .i32) (p : Fin 2048) (v : Fin 8) (k : Fin 3) :
    k0_pay2 x0 x1 (ix3 p v k)
      = IntOp.addi (IntOp.muli (x0 (ix2 p (⟨k.val + 1, by have := k.isLt; omega⟩ : Fin 4))) 2#32) (x1 (ix2 v k)) := by
  have hk := k.isLt
  unfold k0_pay2
  show IntOp.addi (IntOp.muli (extractStridedSlice S2048x8x3 ![0, 0, 1] (k0_pay1 x0) slices_S2048x8x4_o0_0_1_S2048x8x3 (ix3 p v k)) 2#32)
      (broadcastTo S2048x8x3 (shapeCast S1x8x3 (shapeCast S1x8x3 x1 shapeCasts_S8x3_S1x8x3) shapeCasts_S1x8x3_S1x8x3)
        broadcasts_S1x8x3_S2048x8x3 (ix3 p v k)) = _
  rw [extractStridedSlice_apply _ _ slices_S2048x8x4_o0_0_1_S2048x8x3 (ix3 p v k) (ix3 p v (⟨k.val + 1, by omega⟩ : Fin 4)) (by
      intro a
      match a with
      | ⟨0, _⟩ => show p.val = 0 + p.val; omega
      | ⟨1, _⟩ => show v.val = 0 + v.val; omega
      | ⟨2, _⟩ => show k.val + 1 = 1 + k.val; omega),
    pay1_apply,
    broadcastTo_apply _ broadcasts_S1x8x3_S2048x8x3 (ix3 p v k) (ix3 (0 : Fin 1) v k) (by
      intro a
      match a with
      | ⟨0, _⟩ => rfl
      | ⟨1, _⟩ => rfl
      | ⟨2, _⟩ => rfl),
    shapeCast_self,
    shapeCast_apply _ shapeCasts_S8x3_S1x8x3 (ix3 (0 : Fin 1) v k) (ix2 v k) (by
      rw [Shape.rowMajor_val_three, Shape.rowMajor_val_two]
      show v.val * 3 + k.val = (0 * 8 + v.val) * 3 + k.val
      omega)]

/-- `blockRow` depends on its coordinates only through their values. -/
theorem blockRow_congr (x0 : Vec F S2048x4 .i32) (x1 : Vec F S8x3 .i32) {p p' : Fin 2048} {v v' : Fin 8} {j j' : Fin 4}
    (hp : p.val = p'.val) (hv : v.val = v'.val) (hj : j.val = j'.val) :
    blockRow x0 x1 p v j = blockRow x0 x1 p' v' j' := by
  obtain rfl := Fin.ext hp
  obtain rfl := Fin.ext hv
  obtain rfl := Fin.ext hj
  rfl

/-- Word 0 is copied. -/
theorem blockRow_zero (x0 : Vec F S2048x4 .i32) (x1 : Vec F S8x3 .i32) (p : Fin 2048) (v : Fin 8) :
    blockRow x0 x1 p v (0 : Fin 4) = x0 (ix2 p (0 : Fin 4)) := by
  unfold blockRow
  exact dif_pos (show ((0 : Fin 4)).val = 0 from rfl)

/-- Word `k + 1` is doubled and the table's entry `k` added. -/
theorem blockRow_succ (x0 : Vec F S2048x4 .i32) (x1 : Vec F S8x3 .i32) (p : Fin 2048) (v : Fin 8) (k : Fin 3) :
    blockRow x0 x1 p v (⟨k.val + 1, by have := k.isLt; omega⟩ : Fin 4)
      = IntOp.addi (IntOp.muli (x0 (ix2 p (⟨k.val + 1, by have := k.isLt; omega⟩ : Fin 4))) 2#32) (x1 (ix2 v k)) := by
  unfold blockRow
  rw [dif_neg (by show ¬ (k.val + 1 = 0); omega)]
  rfl

/-- The store into columns 1..3, read at its own index, is `blockFn` at the block index it lands on. -/
theorem pay2_blockFn (x0 : Vec F S2048x4 .i32) (x1 : Vec F S8x3 .i32)
    (inb : ∀ a, (![0, 0, 1] : Fin 3 → Nat) a + S2048x8x3.size a ≤ S2048x8x4.size a) (x : S2048x8x3.Idx) :
    k0_pay2 x0 x1 x = blockFn x0 x1 ((Rect.unit (s := S2048x8x4) ![0, 0, 1] S2048x8x3.size inb).emb x) := by
  obtain ⟨p, v, k, rfl⟩ : ∃ (p : Fin 2048) (v : Fin 8) (k : Fin 3), x = ix3 p v k := ⟨x 0, x 1, x 2, eq_ix3 x⟩
  refine (pay2_apply x0 x1 p v k).trans ((blockRow_succ x0 x1 p v k).symm.trans (blockRow_congr x0 x1 ?_ ?_ ?_))
  · show p.val = 0 + 1 * p.val; omega
  · show v.val = 0 + 1 * v.val; omega
  · show k.val + 1 = 1 + 1 * k.val; omega

/-- The store into column 0, read at its own index, is `blockFn` at the block index it lands on. -/
theorem pay3_blockFn (x0 : Vec F S2048x4 .i32) (x1 : Vec F S8x3 .i32)
    (inb : ∀ a, (![0, 0, 0] : Fin 3 → Nat) a + S2048x8x1.size a ≤ S2048x8x4.size a) (x : S2048x8x1.Idx) :
    k0_pay3 x0 x = blockFn x0 x1 ((Rect.unit (s := S2048x8x4) ![0, 0, 0] S2048x8x1.size inb).emb x) := by
  obtain ⟨p, v, z, rfl⟩ : ∃ (p : Fin 2048) (v : Fin 8) (z : Fin 1), x = ix3 p v z := ⟨x 0, x 1, x 2, eq_ix3 x⟩
  refine (pay3_apply x0 p v z).trans ((blockRow_zero x0 x1 p v).symm.trans (blockRow_congr x0 x1 ?_ ?_ ?_))
  · show p.val = 0 + 1 * p.val; omega
  · show v.val = 0 + 1 * v.val; omega
  · show 0 = 0 + 1 * z.val; have := z.isLt; omega

/-- After the body's two stores the output block holds `blockFn` of the two input blocks: the stored rectangles
    (column 0; columns 1..3) cover the block, and each stored value at its own index is `blockFn` where it lands. -/
theorem out_eq (c : Dev nD) (i : grid0.Coords) (a1 : Memref sig .tc .vmem S2048x4 .i32) (h1 : a1.IsWhole)
    (a2 : Memref sig .tc .vmem S8x3 .i32) (h2 : a2.IsWhole) (a3 : Memref sig .tc .vmem S2048x8x4 .i32) (h3 : a3.IsWhole)
    (x0 : Vec F S2048x4 .i32) (x1 : Vec F S8x3 .i32) :
    out0_A_2 c i a1 h1 a2 h2 a3 h3 x0 x1 = blockFn x0 x1 := by
  funext y
  unfold out0_A_2
  refine View.read_writes_apply_of_pieces _ _ (blockFn x0 x1) _ ?_ y (cover0_A_2 c i a1 h1 a2 h2 a3 h3 x0 x1 y)
  unfold kernelRun0_A
  dsimp only
  simp only [View.readAt_eq_ld, h1.read_unread, h2.read_unread, View.ld_unit_zero (S := S2048x4) hz2,
    View.ld_unit_zero (S := S8x3) hz2]
  intro q hq x
  rcases List.mem_cons.mp hq with rfl | hq
  · exact pay2_blockFn x0 x1 inb_S2048x8x4_S2048x8x3_0_0_1 x
  · rcases List.mem_cons.mp hq with rfl | hq
    · exact pay3_blockFn x0 x1 inb_S2048x8x4_S2048x8x1_0_0_0 x
    · cases hq

end Cert.KernelIdeal.RemapValue

end
-- ==== Proof.Spec.lean ====
/-
  What both programs compute, stated once with no program in sight.

  Every input row `n` of `indices` (four 32-bit words: a batch number and three coordinates) is expanded into eight
  output rows, one per entry `v` of a table of eight offset triples: the batch word is copied, and each coordinate
  word is doubled and the table's offset added (all in 32-bit wrap-around arithmetic). Written with three axes the
  result is `expand3 a c (n, v, j)`; flattened row-major to two axes, row `8 n + v`, it is `expand a c`. The only law
  needed is that the flattening of the first is the second: output row `r` comes from input row `r / 8` and table
  row `r % 8`.
-/
import Idealize.ShloMosaic.PureOps
import Idealize.ShloMosaic.Lib.ValueIdx
import Idealize.ShloMosaic.Lib.Pipeline.Value

noncomputable section

namespace Cert.Remap

open Idealize.ShloMosaic Idealize.ShloMosaic.ValueIdx

/-- The index array: 1048576 rows of four words. -/
abbrev SIn : Shape := ⟨2, ![1048576, 4]⟩
/-- The offset table: eight triples. -/
abbrev STab : Shape := ⟨2, ![8, 3]⟩
/-- The expanded rows with the table axis kept apart. -/
abbrev SOut3 : Shape := ⟨3, ![1048576, 8, 4]⟩
/-- The expanded rows flattened. -/
abbrev SOut : Shape := ⟨2, ![8388608, 4]⟩

/-- Word `j` of the output row made from input row `n` and table row `v`: word 0 is copied; word `j ≥ 1` is
    `2 · a(n, j) + c(v, j − 1)`. -/
def row (a : SIn.Idx → BitVec 32) (c : STab.Idx → BitVec 32) (n : Fin 1048576) (v : Fin 8) (j : Fin 4) : BitVec 32 :=
  if h : j.val = 0 then a (ix2 n j)
  else IntOp.addi (IntOp.muli (a (ix2 n j)) 2#32) (c (ix2 v ⟨j.val - 1, by have := j.isLt; omega⟩))

/-- The expansion over three axes. -/
def expand3 (a : SIn.Idx → BitVec 32) (c : STab.Idx → BitVec 32) : SOut3.Idx → BitVec 32 :=
  fun y => row a c ⟨(y 0).val, (y 0).isLt⟩ ⟨(y 1).val, (y 1).isLt⟩ ⟨(y 2).val, (y 2).isLt⟩

/-- The expansion flattened: output row `r` is made from input row `r / 8` and table row `r % 8`. -/
def expand (a : SIn.Idx → BitVec 32) (c : STab.Idx → BitVec 32) : SOut.Idx → BitVec 32 :=
  fun i => row a c ⟨(i 0).val / 8, by have : (i 0).val < 8388608 := (i 0).isLt; omega⟩
    ⟨(i 0).val % 8, Nat.mod_lt _ (by decide)⟩ ⟨(i 1).val, (i 1).isLt⟩

/-- Flattening the three-axis expansion row-major gives the flat one: position `(8 n + v) · 4 + j` on both sides. -/
theorem shapeCast_expand3 (a : SIn.Idx → BitVec 32) (c : STab.Idx → BitVec 32) (h : SOut3.ShapeCasts SOut) :
    shapeCast SOut (expand3 a c) h = expand a c := by
  funext i
  have h0 : (i 0).val < 8388608 := (i 0).isLt
  have h1 : (i 1).val < 4 := (i 1).isLt
  refine (shapeCast_apply (expand3 a c) h i
    (ix3 (⟨(i 0).val / 8, by omega⟩ : Fin 1048576) (⟨(i 0).val % 8, Nat.mod_lt _ (by decide)⟩ : Fin 8) (⟨(i 1).val, h1⟩ : Fin 4)) ?_).trans rfl
  rw [Shape.rowMajor_val_three, Shape.rowMajor_val_two]
  show ((i 0).val / 8 * 8 + (i 0).val % 8) * 4 + (i 1).val = (i 0).val * 4 + (i 1).val
  omega

end Cert.Remap

end
-- ==== Proof.KernelArray.lean ====
/-
  From blocks to arrays: what the idealized kernel's program leaves in its two results.

  The grid has 512 steps. Step `t` reads index rows `2048 t … 2048 t + 2047` and the whole offset table, and writes
  back rows `2048 t … 2048 t + 2047` of the three-axis output. A step's block is `blockFn` of its input blocks, which
  is the restriction of the specification's `expand3` of the whole index array and the table to the step's rows; the
  steps' row ranges cover the array (row `n` belongs to step `n / 2048`), so the output array ends holding `expand3`.
  The host operation after the launch flattens it row-major, which gives `expand`; the host operation before the
  launch flattens `features`, and the constant before it is the table.
-/
import proofs.«104383_j40948218200800_2_alg».proof.Proof.KernelBlock
import proofs.«104383_j40948218200800_2_alg».proof.Proof.Spec
import Idealize.ShloMosaic.Lib.StableHlo.Run

noncomputable section

namespace Cert.KernelIdeal.RemapValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The table of eight offset triples, as the constant's buffer holds it. -/
abbrev table : IVec S8x3 32 := fun i => lit0 (S8x3.rowMajor i)

/-- The block indices at step `t`: the index rows and the output rows move with `t`, the table stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Step `t`'s block of index rows, entry `(p, j)`, is entry `(2048 t + p, j)` of the index array. -/
theorem iblk0_apply (c : Dev nD) (t : Fin cfg0.N) (p : Fin 2048) (j : Fin 4) (n : Fin 1048576)
    (hn : n.val = t.val * 2048 + p.val) :
    (iblk m c 0 t : Vec F S2048x4 .i32) (ix2 p j) = (V m c main_arg1 : S1048576x4.Idx → BitVec 32) (ix2 n j) := by
  obtain ⟨e0, e1, -⟩ := idx_facts t
  unfold iblk
  rw [View.read_apply]
  show V m c main_arg1 (((cfg0.win 0).blk t).view.emb (ix2 p j)) = V m c main_arg1 (ix2 n j)
  refine congrArg (V m c main_arg1) ?_
  funext a
  apply Fin.ext
  match a with
  | ⟨0, _⟩ => show win0_0.index t (0 : Fin 2) * 2048 + 1 * p.val = n.val; rw [e0, hn]; omega
  | ⟨1, _⟩ => show win0_0.index t (1 : Fin 2) * 4 + 1 * j.val = j.val; rw [e1]; omega

/-- Step `t`'s block of the table is the table. -/
theorem iblk1_apply (c : Dev nD) (t : Fin cfg0.N) (v : Fin 8) (k : Fin 3) :
    (iblk m c 1 t : Vec F S8x3 .i32) (ix2 v k) = (V m c main_c : S8x3.Idx → BitVec 32) (ix2 v k) := by
  obtain ⟨-, -, e0, e1, -⟩ := idx_facts t
  unfold iblk
  rw [View.read_apply]
  show V m c main_c (((cfg0.win 1).blk t).view.emb (ix2 v k)) = V m c main_c (ix2 v k)
  refine congrArg (V m c main_c) ?_
  funext a
  apply Fin.ext
  match a with
  | ⟨0, _⟩ => show win0_1.index t (0 : Fin 2) * 8 + 1 * v.val = v.val; rw [e0]; omega
  | ⟨1, _⟩ => show win0_1.index t (1 : Fin 2) * 3 + 1 * k.val = k.val; rw [e1]; omega

/-- A block row made from blocks that are restrictions of whole arrays is the specification's row of those arrays. -/
theorem blockRow_eq_row (x0 : Vec F S2048x4 .i32) (x1 : Vec F S8x3 .i32)
    (a : Cert.Remap.SIn.Idx → BitVec 32) (tb : Cert.Remap.STab.Idx → BitVec 32)
    (p : Fin 2048) (v : Fin 8) (j : Fin 4) (n : Fin 1048576)
    (h0 : ∀ j : Fin 4, x0 (ix2 p j) = a (ix2 n j)) (h1 : ∀ k : Fin 3, x1 (ix2 v k) = tb (ix2 v k)) :
    blockRow x0 x1 p v j = Cert.Remap.row a tb n v j := by
  unfold blockRow Cert.Remap.row
  by_cases hj : j.val = 0
  · rw [dif_pos hj, dif_pos hj, h0]
  · rw [dif_neg hj, dif_neg hj, h0, h1]

/-- The specification's row depends on its coordinates only through their values. -/
theorem row_congr (a : Cert.Remap.SIn.Idx → BitVec 32) (tb : Cert.Remap.STab.Idx → BitVec 32)
    {n n' : Fin 1048576} {v v' : Fin 8} {j j' : Fin 4}
    (hn : n.val = n'.val) (hv : v.val = v'.val) (hj : j.val = j'.val) :
    Cert.Remap.row a tb n v j = Cert.Remap.row a tb n' v' j' := by
  obtain rfl := Fin.ext hn
  obtain rfl := Fin.ext hv
  obtain rfl := Fin.ext hj
  rfl

/-- WHAT STEP `t` WRITES BACK is its block of the specification's three-axis expansion of the index array and table
    as the launch finds them. -/
theorem flushed_eq (c : Dev nD) (t : Fin cfg0.N) :
    (dats m 0 c).flushed 2 t
      = ((cfg0.win 2).blk t).view.read (Elt F) (Cert.Remap.expand3 (V m c main_arg1) (V m c main_c)) := by
  obtain ⟨-, -, -, -, e0, e1, e2⟩ := idx_facts t
  have hN : cfg0.N = 512 := N_0
  have ht : t.val < 512 := hN ▸ t.isLt
  show (cfg0.win 2).cut (grid0.coords t) ((dats m 0 c).after 2 t) = _
  rw [after0_2]
  unfold outsAt0
  rw [out_eq]
  funext y
  rw [View.read_apply]
  have hy0 : (y 0).val < 2048 := (y 0).isLt
  have hy1 : (y 1).val < 8 := (y 1).isLt
  have hy2 : (y 2).val < 4 := (y 2).isLt
  have E0 : ((((cfg0.win 2).blk t).view.emb y) 0).val = t.val * 2048 + (y 0).val := by
    show win0_2.index t (0 : Fin 3) * 2048 + 1 * (y 0).val = _; rw [e0]; omega
  have E1 : ((((cfg0.win 2).blk t).view.emb y) 1).val = (y 1).val := by
    show win0_2.index t (1 : Fin 3) * 8 + 1 * (y 1).val = _; rw [e1]; omega
  have E2 : ((((cfg0.win 2).blk t).view.emb y) 2).val = (y 2).val := by
    show win0_2.index t (2 : Fin 3) * 4 + 1 * (y 2).val = _; rw [e2]; omega
  show blockRow (iblk m c 0 t) (iblk m c 1 t) ⟨(y 0).val, hy0⟩ ⟨(y 1).val, hy1⟩ ⟨(y 2).val, hy2⟩
    = Cert.Remap.row (V m c main_arg1) (V m c main_c) ⟨((((cfg0.win 2).blk t).view.emb y) 0).val, _⟩
        ⟨((((cfg0.win 2).blk t).view.emb y) 1).val, _⟩ ⟨((((cfg0.win 2).blk t).view.emb y) 2).val, _⟩
  refine (blockRow_eq_row _ _ (V m c main_arg1) (V m c main_c) _ _ _ ⟨t.val * 2048 + (y 0).val, by omega⟩
    (fun j => iblk0_apply m c t _ j _ rfl) (fun k => iblk1_apply m c t _ k)).trans ?_
  exact row_congr _ _ E0.symm E1.symm E2.symm

/-- An index of the output array is in step `t`'s block iff each coordinate is in the block's range on its axis. -/
theorem mem_blk (t : Fin cfg0.N) (i : S1048576x8x4.Idx) :
    i ∈ ((cfg0.win 2).blk t).view.set ↔ ∀ a : Fin 3, win0_2.index t a * S2048x8x4.size a ≤ (i a).val
      ∧ (i a).val < win0_2.index t a * S2048x8x4.size a + S2048x8x4.size a := by
  show i ∈ ((View.whole main_v1).slice (win0_2.rect t)).set ↔ _
  rw [View.set_slice_whole, Rect.mem_set_unit]
  exact Iff.rfl

/-- Every index of the output array is in some step's block: row `n` belongs to step `n / 2048`. -/
theorem cover (i : S1048576x8x4.Idx) :
    ∃ t : Fin cfg0.N, (cfg0.win 2).flush t = true ∧ i ∈ ((cfg0.win 2).blk t).view.set := by
  have hN : cfg0.N = 512 := N_0
  have h0 : (i 0).val < 1048576 := (i 0).isLt
  have h1 : (i 1).val < 8 := (i 1).isLt
  have h2 : (i 2).val < 4 := (i 2).isLt
  have ht : (i 0).val / 2048 < cfg0.N := by rw [hN]; omega
  refine ⟨⟨(i 0).val / 2048, ht⟩, flush0_2 _, ?_⟩
  rw [mem_blk]
  obtain ⟨-, -, -, -, e0, e1, e2⟩ := idx_facts ⟨(i 0).val / 2048, ht⟩
  intro a
  match a with
  | ⟨0, _⟩ =>
    show win0_2.index ⟨(i 0).val / 2048, ht⟩ (0 : Fin 3) * 2048 ≤ (i 0).val
      ∧ (i 0).val < win0_2.index ⟨(i 0).val / 2048, ht⟩ (0 : Fin 3) * 2048 + 2048
    rw [e0]; show (i 0).val / 2048 * 2048 ≤ (i 0).val ∧ (i 0).val < (i 0).val / 2048 * 2048 + 2048; omega
  | ⟨1, _⟩ =>
    show win0_2.index ⟨(i 0).val / 2048, ht⟩ (1 : Fin 3) * 8 ≤ (i 1).val
      ∧ (i 1).val < win0_2.index ⟨(i 0).val / 2048, ht⟩ (1 : Fin 3) * 8 + 8
    rw [e1]; omega
  | ⟨2, _⟩ =>
    show win0_2.index ⟨(i 0).val / 2048, ht⟩ (2 : Fin 3) * 4 ≤ (i 2).val
      ∧ (i 2).val < win0_2.index ⟨(i 0).val / 2048, ht⟩ (2 : Fin 3) * 4 + 4
    rw [e2]; omega

/-- THE OUTPUT ARRAY after the launch: the specification's three-axis expansion of the index array and the table. -/
theorem final (c : Dev nD) :
    (dats m 0 c).arrAt 2 cfg0.N = Cert.Remap.expand3 (V m c main_arg1) (V m c main_c) :=
  (dats m 0 c).arrAt_eq_of_cover 2 (Cert.Remap.expand3 (V m c main_arg1) (V m c main_c))
    (fun t _ => flushed_eq m c t) cover

/-- The launch finds the constant's buffer holding the table. -/
theorem V_main_c (c : Dev nD) : (V m c main_c : S8x3.Idx → BitVec 32) = table := by
  show StableHlo.after hostOps0 (fun b => m (c, b)) (Proc.devRef .tc main_c) = _
  after_results
  rfl

/-- The launch finds the first result already written: `features` re-read row-major as 8388608 rows of 8. -/
theorem V_main_v0 (c : Dev nD) : (V m c main_v0 : S8388608x8.Idx → Elt F .f32)
    = shapeCast S8388608x8 (m ((c : Thread nD τ).loc main_arg0)) shapeCasts_S1048576x64_S8388608x8 := by
  show StableHlo.after hostOps0 (fun b => m (c, b)) (Proc.devRef .tc main_v0) = _
  after_results
  rfl

/-- The operation after the launch does not touch the first result. -/
theorem tail_v0 (c : Dev nD) : Pipeline.afterTail₀ cfgs (dats m) 0 (V0 m) [hostOps1] c main_v0
    = shapeCast S8388608x8 (m ((c : Thread nD τ).loc main_arg0)) shapeCasts_S1048576x64_S8388608x8 := by
  unfold Pipeline.afterTail₀
  rw [StableHlo.after_of_forall_not_mem (b := Proc.devRef .tc main_v0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_v0 (by exact (by decide : ∀ w, Pipeline.arrRef spec0 w ≠ main_v0))]
  exact V_main_v0 m c

/-- The operation after the launch flattens the output array row-major into the second result. -/
theorem tail_v2 (c : Dev nD) : Pipeline.afterTail₀ cfgs (dats m) 0 (V0 m) [hostOps1] c main_v2
    = shapeCast S8388608x4 ((dats m 0 c).arrAt 2 cfg0.N) shapeCasts_S1048576x8x4_S8388608x4 := by
  have e : Pipeline.withArrays spec0 c (V0 m c) (fun w => (dats m 0 c).arrAt w cfg0.N) (Proc.devRef .tc main_v1)
      = (dats m 0 c).arrAt 2 cfg0.N := Pipeline.withArrays_arr spec0 launch0.win.arr_inj c _ _ 2
  unfold Pipeline.afterTail₀
  show StableHlo.after hostOps1 _ (Proc.devRef .tc main_v2) = _
  after_results
  rw [e]
  rfl

/-- THE RUN, READ: every weakly fair execution of the idealized kernel's program terminates with the first result at
    `features` flattened, the second at the specification's expansion of `indices` by the table, and the arguments
    unchanged. -/
theorem run : θ_run defs (onTc (τ := τ) (main (F := F))) ⟨m, fun _ => 0, ρ⟩ fun r => ∀ c : Dev nD,
      r.2.mem ((c : Thread nD τ).loc main_v0)
        = shapeCast S8388608x8 (m ((c : Thread nD τ).loc main_arg0)) shapeCasts_S1048576x64_S8388608x8
      ∧ r.2.mem ((c : Thread nD τ).loc main_v2) = Cert.Remap.expand (m ((c : Thread nD τ).loc main_arg1)) table
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v0 (Pipeline.mem_restRefs_of main_v0 (by decide) (by decide))).trans (tail_v0 m c),
      ((h c).2 main_v2 (Pipeline.mem_restRefs_of main_v2 (by decide) (by decide))).trans ((tail_v2 m c).trans (by
        rw [final, Cert.Remap.shapeCast_expand3, V_main_arg1, V_main_c])),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.RemapValue

end
-- ==== Proof.RefRun.lean ====
/-
  The reference, run. It is a straight line of fourteen host operations and no kernel: `features` is re-read
  row-major with eight times as many rows; `indices` is repeated eight times along a new middle axis and flattened;
  the table of eight offset triples is repeated once per input row and flattened the same way; columns 1..3 of the
  repeated indices are doubled and the repeated offsets added; column 0 is put back in front. This module lists the
  operations, shows that `main` is their sequence, and reads the run back: every weakly fair execution terminates,
  the two results hold the operations' composed terms of the arguments (`feats`, `newIdx`), and the arguments are
  unchanged.
-/
import proofs.«104383_j40948218200800_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The table of eight offset triples, as the constant's buffer holds it. -/
abbrev table : IVec S8x3 32 := fun i => lit0 (S8x3.rowMajor i)

/-- `main`'s fourteen operations, in order. -/
abbrev ops : List (HloOp τ sig (Elt F)) :=
  [ nullary main_c (fun i => lit0 (S8x3.rowMajor i)),
    reshape main_arg0 main_v0 rfl shapeCasts_S1048576x64_S8388608x8,
    unary main_arg1 main_v1 (broadcastInDim S1048576x8x4 ![0, 2] bcast_S1048576x4_S1048576x8x4_0_2 : (⟨S1048576x4, .i32⟩ : BufTy).Contents (Elt F) → (⟨S1048576x8x4, .i32⟩ : BufTy).Contents (Elt F)),
    reshape main_v1 main_v2 rfl shapeCasts_S1048576x8x4_S8388608x4,
    reshape main_c main_v3 rfl shapeCasts_S8x3_S1x8x1x3,
    unary main_v3 main_v4 (broadcastInDim S1048576x8x1x3 ![0, 1, 2, 3] bcast_S1x8x1x3_S1048576x8x1x3_0_1_2_3 : (⟨S1x8x1x3, .i32⟩ : BufTy).Contents (Elt F) → (⟨S1048576x8x1x3, .i32⟩ : BufTy).Contents (Elt F)),
    reshape main_v4 main_v5 rfl shapeCasts_S1048576x8x1x3_S8388608x3,
    unary main_v2 main_v6 ((extractStridedSlice S8388608x3 ![0, 1] · slices_S8388608x4_S8388608x3_0_1) : (⟨S8388608x4, .i32⟩ : BufTy).Contents (Elt F) → (⟨S8388608x3, .i32⟩ : BufTy).Contents (Elt F)),
    nullary main_c_0 (constantI S_ 32 2#32),
    unary main_c_0 main_v7 (broadcastInDim S8388608x3 ![] bcast_S_S8388608x3 : (⟨S_, .i32⟩ : BufTy).Contents (Elt F) → (⟨S8388608x3, .i32⟩ : BufTy).Contents (Elt F)),
    binary main_v6 main_v7 main_v8 (muli : (⟨S8388608x3, .i32⟩ : BufTy).Contents (Elt F) → (⟨S8388608x3, .i32⟩ : BufTy).Contents (Elt F) → (⟨S8388608x3, .i32⟩ : BufTy).Contents (Elt F)),
    binary main_v8 main_v5 main_v9 (addi : (⟨S8388608x3, .i32⟩ : BufTy).Contents (Elt F) → (⟨S8388608x3, .i32⟩ : BufTy).Contents (Elt F) → (⟨S8388608x3, .i32⟩ : BufTy).Contents (Elt F)),
    unary main_v2 main_v10 ((extractStridedSlice S8388608x1 ![0, 0] · slices_S8388608x4_S8388608x1_0_0) : (⟨S8388608x4, .i32⟩ : BufTy).Contents (Elt F) → (⟨S8388608x1, .i32⟩ : BufTy).Contents (Elt F)),
    binary main_v10 main_v9 main_v11 ((fun a b => concatenate S8388608x4 1 [⟨S8388608x1, a⟩, ⟨S8388608x3, b⟩] concatenates_S8388608x1_S8388608x3_S8388608x4_d1) : (⟨S8388608x1, .i32⟩ : BufTy).Contents (Elt F) → (⟨S8388608x3, .i32⟩ : BufTy).Contents (Elt F) → (⟨S8388608x4, .i32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., reshape_bufs_sub .., unary_bufs_sub .., reshape_bufs_sub .., unary_bufs_sub .., nullary_bufs_sub .., unary_bufs_sub .., binary_bufs_sub .., binary_bufs_sub .., unary_bufs_sub .., binary_bufs_sub ..⟩

/-- The first result: `features` re-read row-major as 8388608 rows of 8. -/
def feats (x : FVec F S1048576x64 .f32) : FVec F S8388608x8 .f32 :=
  shapeCast S8388608x8 x shapeCasts_S1048576x64_S8388608x8

/-- `indices` repeated eight times along a new middle axis, flattened to 8388608 rows of 4. -/
def repeated (a : IVec S1048576x4 32) : IVec S8388608x4 32 :=
  shapeCast S8388608x4 (broadcastInDim S1048576x8x4 ![0, 2] bcast_S1048576x4_S1048576x8x4_0_2 a) shapeCasts_S1048576x8x4_S8388608x4

/-- The table repeated once per input row, flattened to 8388608 rows of 3. -/
def tiled : IVec S8388608x3 32 :=
  shapeCast S8388608x3 (broadcastInDim S1048576x8x1x3 ![0, 1, 2, 3] bcast_S1x8x1x3_S1048576x8x1x3_0_1_2_3
    (shapeCast S1x8x1x3 table shapeCasts_S8x3_S1x8x1x3)) shapeCasts_S1048576x8x1x3_S8388608x3

/-- The second result: column 0 of the repeated indices, then columns 1..3 doubled plus the tiled offsets. -/
def newIdx (a : IVec S1048576x4 32) : IVec S8388608x4 32 :=
  concatenate S8388608x4 1
    [⟨S8388608x1, extractStridedSlice S8388608x1 ![0, 0] (repeated a) slices_S8388608x4_S8388608x1_0_0⟩,
     ⟨S8388608x3, addi (muli (extractStridedSlice S8388608x3 ![0, 1] (repeated a) slices_S8388608x4_S8388608x3_0_1)
        (broadcastInDim S8388608x3 ![] bcast_S_S8388608x3 (constantI S_ 32 2#32))) tiled⟩]
    concatenates_S8388608x1_S8388608x3_S8388608x4_d1

/-- On every device, from any memory with zero counters: every weakly fair execution of `main` terminates with the
    two results at `feats` and `newIdx` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = feats (m ((c.tc : Thread nD τ).loc main_arg0))
      ∧ r.2.mem ((c.tc : Thread nD τ).loc main_v11) = newIdx (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (by after_results; rfl),
      (h c main_v11).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.HostRun

end
-- ==== Proof.RefValue.lean ====
/-
  The reference's second result, index by index. Reading the fourteen operations backwards at output position
  `(r, j)`: the concatenation takes column 0 from the repeated indices and columns 1..3 from the sum; a slice shifts the
  column; the flattening of the repeat sends row `r` to input row `r / 8` (position `(8 (r/8) + r%8) · 4 + j` on both
  sides); the flattening of the tiled table sends row `r` to table row `r % 8`. So the result is word `j` of the output
  row made from input row `r / 8` and table row `r % 8`: the specification's `expand`.
-/
import proofs.«104383_j40948218200800_2_alg».proof.Proof.RefRun
import proofs.«104383_j40948218200800_2_alg».proof.Proof.Spec
import Idealize.ShloMosaic.Lib.Pipeline.Value
import Idealize.ShloMosaic.Lib.ValueIdx

noncomputable section

namespace Cert.ReferenceIdeal.HostRun

open Cert.ReferenceIdeal Cert.ReferenceIdeal.Gen Idealize.ShloMosaic Idealize.ShloMosaic.ValueIdx

/-- The repeated indices at row `r`, column `j`: input row `r / 8`, column `j`. -/
theorem repeated_apply (a : IVec S1048576x4 32) (r : Fin 8388608) (j : Fin 4) :
    repeated a (ix2 r j) = a (ix2 (⟨r.val / 8, by have := r.isLt; omega⟩ : Fin 1048576) j) := by
  have hr := r.isLt
  have hj := j.isLt
  unfold repeated
  refine (shapeCast_apply _ shapeCasts_S1048576x8x4_S8388608x4 (ix2 r j)
    (ix3 (⟨r.val / 8, by omega⟩ : Fin 1048576) (⟨r.val % 8, Nat.mod_lt _ (by decide)⟩ : Fin 8) j) ?_).trans ?_
  · rw [Shape.rowMajor_val_three, Shape.rowMajor_val_two]
    show (r.val / 8 * 8 + r.val % 8) * 4 + j.val = r.val * 4 + j.val
    omega
  · refine broadcastInDim_apply _ bcast_S1048576x4_S1048576x8x4_0_2 a _ (ix2 (⟨r.val / 8, by omega⟩ : Fin 1048576) j) ?_
    intro b
    match b with
    | ⟨0, _⟩ => rfl
    | ⟨1, _⟩ => rfl

/-- The tiled table at row `r`, column `k`: table row `r % 8`, column `k`. -/
theorem tiled_apply (r : Fin 8388608) (k : Fin 3) :
    tiled (ix2 r k) = table (ix2 (⟨r.val % 8, Nat.mod_lt _ (by decide)⟩ : Fin 8) k) := by
  have hr := r.isLt
  have hk := k.isLt
  unfold tiled
  refine (shapeCast_apply _ shapeCasts_S1048576x8x1x3_S8388608x3 (ix2 r k)
    (ix4 (⟨r.val / 8, by omega⟩ : Fin 1048576) (⟨r.val % 8, Nat.mod_lt _ (by decide)⟩ : Fin 8) (0 : Fin 1) k) ?_).trans ?_
  · rw [Shape.rowMajor_val_four, Shape.rowMajor_val_two]
    show ((r.val / 8 * 8 + r.val % 8) * 1 + 0) * 3 + k.val = r.val * 3 + k.val
    omega
  · refine (broadcastInDim_apply _ bcast_S1x8x1x3_S1048576x8x1x3_0_1_2_3 _ _
      (ix4 (0 : Fin 1) (⟨r.val % 8, Nat.mod_lt _ (by decide)⟩ : Fin 8) (0 : Fin 1) k) ?_).trans ?_
    · intro b
      match b with
      | ⟨0, _⟩ => rfl
      | ⟨1, _⟩ => rfl
      | ⟨2, _⟩ => rfl
      | ⟨3, _⟩ => rfl
    · refine shapeCast_apply _ shapeCasts_S8x3_S1x8x1x3 _ (ix2 (⟨r.val % 8, Nat.mod_lt _ (by decide)⟩ : Fin 8) k) ?_
      rw [Shape.rowMajor_val_four, Shape.rowMajor_val_two]
      show r.val % 8 * 3 + k.val = ((0 * 8 + r.val % 8) * 1 + 0) * 3 + k.val
      omega

/-- The second result at row `r`, column `j`. -/
theorem newIdx_apply (a : IVec S1048576x4 32) (r : Fin 8388608) (j : Fin 4) :
    newIdx a (ix2 r j)
      = Cert.Remap.row a table ⟨r.val / 8, by have := r.isLt; omega⟩ ⟨r.val % 8, Nat.mod_lt _ (by decide)⟩ j := by
  have hr := r.isLt
  have hj := j.isLt
  unfold newIdx Cert.Remap.row
  by_cases h0 : j.val = 0
  · rw [dif_pos h0]
    refine (concatenate_pair_apply_left (t := S8388608x4) (s₁ := S8388608x1) (s₂ := S8388608x3) (1 : Fin 2) _ _ concatenates_S8388608x1_S8388608x3_S8388608x4_d1 (ix2 r j) rfl
      (ix2 r (0 : Fin 1)) ?_).trans ?_
    · intro b
      match b with
      | ⟨0, _⟩ => rfl
      | ⟨1, _⟩ => exact h0.symm
    · refine (extractStridedSlice_apply _ _ slices_S8388608x4_S8388608x1_0_0 _ (ix2 r j) ?_).trans (repeated_apply a r j)
      intro b
      match b with
      | ⟨0, _⟩ => show r.val = 0 + r.val; omega
      | ⟨1, _⟩ => show j.val = 0 + 0; omega
  · rw [dif_neg h0]
    refine (concatenate_pair_apply_right (t := S8388608x4) (s₁ := S8388608x1) (s₂ := S8388608x3) (1 : Fin 2) _ _ concatenates_S8388608x1_S8388608x3_S8388608x4_d1 (ix2 r j) rfl rfl
      (ix2 r (⟨j.val - 1, by omega⟩ : Fin 3)) ?_ ?_).trans ?_
    · intro b hb
      match b with
      | ⟨0, _⟩ => rfl
      | ⟨1, _⟩ => exact absurd rfl hb
    · show j.val - 1 + 1 = j.val
      omega
    · show IntOp.addi (IntOp.muli (extractStridedSlice S8388608x3 ![0, 1] (repeated a) slices_S8388608x4_S8388608x3_0_1
          (ix2 r (⟨j.val - 1, by omega⟩ : Fin 3))) 2#32) (tiled (ix2 r (⟨j.val - 1, by omega⟩ : Fin 3))) = _
      rw [tiled_apply, extractStridedSlice_apply _ _ slices_S8388608x4_S8388608x3_0_1 _ (ix2 r j) (by
        intro b
        match b with
        | ⟨0, _⟩ => show r.val = 0 + r.val; omega
        | ⟨1, _⟩ => show j.val = 1 + (j.val - 1); omega), repeated_apply]

/-- The second result is the specification's expansion of the argument by the table. -/
theorem newIdx_eq (a : IVec S1048576x4 32) : newIdx a = Cert.Remap.expand a table := by
  funext i
  rw [eq_ix2 i]
  exact newIdx_apply a (i 0) (i 1)

end Cert.ReferenceIdeal.HostRun

end
-- ==== Proof.lean ====
/-
  The certificate: the kernel and its reference compute the same two arrays.

  Both programs take `features` (1048576 × 64 reals) and `indices` (1048576 × 4 words). The first result is
  `features` re-read row-major as 8388608 × 8: the same host operation in both programs. The second result expands every
  index row into eight rows, one per entry of a constant table of eight offset triples: word 0 copied, words 1..3
  doubled plus the offsets (Proof/Spec.lean). The kernel does this block by block — 512 grid steps of 2048 rows, each
  storing its 2048 × 8 × 4 block in two pieces (Proof/KernelBlock.lean), the blocks covering the three-axis array, which
  a final host operation flattens (Proof/KernelArray.lean). The reference repeats the indices and tiles the table over
  flat arrays, slices, multiplies, adds and concatenates (Proof/RefRun.lean), which index by index is the same row
  (Proof/RefValue.lean). No arithmetic law is needed beyond row `r` of the flat result coming from input row `r / 8`
  and table row `r % 8`; the integer words are never opened, so the precondition is not used for the values.

  The three frames: the two kernel programs' are the generated frame runs; the reference's is its run with the results
  dropped. The idealization rewrote nothing, so `preserves` is `True`.
-/
import proofs.«104383_j40948218200800_2_alg».proof.Defs
import proofs.«104383_j40948218200800_2_alg».proof.Proof.Gen.Kernel
import proofs.«104383_j40948218200800_2_alg».proof.Proof.Gen.Kernel.Skeleton
import proofs.«104383_j40948218200800_2_alg».proof.Proof.Gen.Kernel.Launch
import proofs.«104383_j40948218200800_2_alg».proof.Proof.Gen.Kernel.Points
import proofs.«104383_j40948218200800_2_alg».proof.Proof.Gen.Kernel.Frame
import proofs.«104383_j40948218200800_2_alg».proof.Proof.Gen.KernelIdeal
import proofs.«104383_j40948218200800_2_alg».proof.Proof.Gen.KernelIdeal.Skeleton
import proofs.«104383_j40948218200800_2_alg».proof.Proof.Gen.KernelIdeal.Launch
import proofs.«104383_j40948218200800_2_alg».proof.Proof.Gen.KernelIdeal.Points
import proofs.«104383_j40948218200800_2_alg».proof.Proof.Gen.KernelIdeal.Frame
import proofs.«104383_j40948218200800_2_alg».proof.Proof.Gen.ReferenceIdeal
import proofs.«104383_j40948218200800_2_alg».proof.Proof.Gen.Pre_finite_inputs
import proofs.«104383_j40948218200800_2_alg».proof.Proof.KernelArray
import proofs.«104383_j40948218200800_2_alg».proof.Proof.RefValue
import Idealize.ShloMosaic.Adequacy
import Idealize.ShloMosaic.Init

noncomputable section

namespace Cert.Proof

open Idealize.ShloMosaic Idealize.SL.Sem

/-- The two programs carry the same table of offsets. -/
theorem table_eq : Cert.ReferenceIdeal.HostRun.table = Cert.KernelIdeal.RemapValue.table := by
  funext i
  exact (by decide : ∀ k : Fin 24, Cert.ReferenceIdeal.lit0 k = Cert.KernelIdeal.lit0 k) _

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => ⟨(h c).2.2.1, (h c).2.2.2⟩)
    (Cert.ReferenceIdeal.HostRun.run (F := Ideal) m ρ)

theorem preserves : Cert.preserves_Kernel_KernelIdeal := trivial

/-- From memories agreeing on the arguments both programs end with `features` flattened and with the
    specification's expansion of `indices` by the table. -/
theorem algebraic : Cert.algebraic_KernelIdeal_ReferenceIdeal := by
  intro m ρ m' ρ' _ hagree
  refine ⟨_, _, Cert.KernelIdeal.RemapValue.run (F := Ideal) m ρ, ?_⟩
  refine (θ_run Cert.ReferenceIdeal.defs _ _).mono (fun _ h c => ⟨?_, ?_, (h c).2.2.1, (h c).2.2.2⟩)
    (Cert.ReferenceIdeal.HostRun.run (F := Ideal) m' ρ')
  · rw [(h c).1, (hagree c).1]
    rfl
  · rw [(h c).2.1, Cert.ReferenceIdeal.HostRun.newIdx_eq, (hagree c).2, table_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
